-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S8192 : Shape := ⟨1, ![8192]⟩
abbrev S16x2048 : Shape := ⟨2, ![16, 2048]⟩
abbrev S8192x16 : Shape := ⟨2, ![8192, 16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S16x2048 : S_.BroadcastsInDim S16x2048 (![] : Fin 0 → Fin S16x2048.rank)
  reducesTo_S16x2048_S_d0_1 : S16x2048.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S8192x16 .f32 := Host.absf main_arg4
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  main_v23

def fn {F : FTy → Type} [FloatOps F] (main_arg0 : FVec F S4x2048x2048 .f32) (main_arg1 : FVec F S8192x2048 .f32) (main_arg2 : FVec F S8192 .f32) (main_arg3 : FVec F S16x2048 .f32) (main_arg4 : FVec F S8192x16 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4x2048x2048 : Shape := ⟨3, ![4, 2048, 2048]⟩
abbrev S8192x2048 : Shape := ⟨2, ![8192, 2048]⟩
abbrev S8192 : Shape := ⟨1, ![8192]⟩
abbrev S16x2048 : Shape := ⟨2, ![16, 2048]⟩
abbrev S8192x16 : Shape := ⟨2, ![8192, 16]⟩
abbrev S1x8192 : Shape := ⟨2, ![1, 8192]⟩
abbrev S8192x8192 : Shape := ⟨2, ![8192, 8192]⟩
abbrev S1024x2048 : Shape := ⟨2, ![1024, 2048]⟩
abbrev S1024x16 : Shape := ⟨2, ![1024, 16]⟩
abbrev S1x1024 : Shape := ⟨2, ![1, 1024]⟩
abbrev S1024x1024 : Shape := ⟨2, ![1024, 1024]⟩
abbrev S4x2048x8192 : Shape := ⟨3, ![4, 2048, 8192]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S16x2048, .f32⟩
  | .hbm, ⟨4, _⟩ => ⟨S8192x16, .f32⟩
  | .hbm, ⟨5, _⟩ => ⟨S8192x2048, .f32⟩
  | .hbm, ⟨6, _⟩ => ⟨S1x8192, .f32⟩
  | .hbm, ⟨7, _⟩ => ⟨S8192x2048, .bf16⟩
  | .hbm, ⟨8, _⟩ => ⟨S8192x2048, .bf16⟩
  | .hbm, ⟨9, _⟩ => ⟨S16x2048, .bf16⟩
  | .hbm, ⟨10, _⟩ => ⟨S8192x16, .bf16⟩
  | .hbm, ⟨11, _⟩ => ⟨S8192x16, .f32⟩
  | .hbm, ⟨12, _⟩ => ⟨S8192x16, .bf16⟩
  | .hbm, ⟨13, _⟩ => ⟨S8192x8192, .f32⟩
  | .hbm, ⟨14, _⟩ => ⟨S4x2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x16, .bf16⟩
  | .local _ .vmem, ⟨5, _⟩ => ⟨S1024x16, .bf16⟩
  | .local _ .vmem, ⟨6, _⟩ => ⟨S1024x16, .bf16⟩
  | .local _ .vmem, ⟨7, _⟩ => ⟨S1024x16, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x2048_S8192x2048 : S4x2048x2048.ShapeCasts S8192x2048
  shapeCasts_S8192_S1x8192 : S8192.ShapeCasts S1x8192
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S8192x8192_S4x2048x8192 : S8192x8192.ShapeCasts S4x2048x8192
  dot_S8192x2048_S16x2048_S8192x16_1_1_0_0_n_n_wf : DotDims.WF S8192x2048 S16x2048 S8192x16 [1] [1] [0] [0] [] []
  dot_S1024x2048_S1024x2048_S1024x1024_1_1_0_0_n_n_wf : DotDims.WF S1024x2048 S1024x2048 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .bf16 = 32 ∨ (Rect.block (s := S8192x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S8192x16.size a
  hwx0_3 : ∀ i : grid0.Coords, EltTy.bits .bf16 = 32 ∨ (Rect.block (s := S8192x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x8192.size a
  hwx0_5 : ∀ i : grid0.Coords, EltTy.bits .f32 = 32 ∨ (Rect.block (s := S8192x8192) S1024x1024.size (cc0_transform_5 i) (hinb0_5 i)).WholeWords (EltTy.packing .f32)

variable [Facts₀]

def dot_S8192x2048_S16x2048_S8192x16_1_1_0_0_n_n : DotDims S8192x2048 S16x2048 S8192x16 where
  lhsContracting := [1]
  rhsContracting := [1]
  lhsNonContracting := [0]
  rhsNonContracting := [0]
  lhsBatch := []
  rhsBatch := []
  wf := dot_S8192x2048_S16x2048_S8192x16_1_1_0_0_n_n_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S8192 : Shape := ⟨1, ![8192]⟩
abbrev S16x2048 : Shape := ⟨2, ![16, 2048]⟩
abbrev S8192x16 : Shape := ⟨2, ![8192, 16]⟩
abbrev S4x2048x8192 : Shape := ⟨3, ![4, 2048, 8192]⟩
abbrev S1x1x8192 : Shape := ⟨3, ![1, 1, 8192]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192, .f32⟩
  | .hbm, ⟨3, _⟩ => ⟨S16x2048, .f32⟩
  | .hbm, ⟨4, _⟩ => ⟨S8192x16, .f32⟩
  | .hbm, ⟨5, _⟩ => ⟨S4x2048x8192, .f32⟩
  | .hbm, ⟨6, _⟩ => ⟨S1x1x8192, .f32⟩
  | .hbm, ⟨7, _⟩ => ⟨S4x2048x8192, .f32⟩
  | .hbm, ⟨8, _⟩ => ⟨S4x2048x8192, .f32⟩
  | .hbm, ⟨9, _⟩ => ⟨S4x2048x16, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x2048_S16x2048_S4x2048x16_2_1_01_0_n_n_wf : DotDims.WF S4x2048x2048 S16x2048 S4x2048x16 [2] [1] [0, 1] [0] [] []
  dot_S4x2048x16_S8192x16_S4x2048x8192_2_1_01_0_n_n_wf : DotDims.WF S4x2048x16 S8192x16 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x2048_S16x2048_S4x2048x16_2_1_01_0_n_n : DotDims S4x2048x2048 S16x2048 S4x2048x16 where
  lhsContracting := [2]
  rhsContracting := [1]
  lhsNonContracting := [0, 1]
  rhsNonContracting := [0]
  lhsBatch := []
  rhsBatch := []
  wf := dot_S4x2048x2048_S16x2048_S4x2048x16_2_1_01_0_n_n_wf
def dot_S4x2048x16_S8192x16_S4x2048x8192_2_1_01_0_n_n : DotDims S4x2048x16 S8192x16 S4x2048x8192 where
  lhsContracting := [2]
  rhsContracting := [1]
  lhsNonContracting := [0, 1]
  rhsNonContracting := [0]
  lhsBatch := []
  rhsBatch := []
  wf := dot_S4x2048x16_S8192x16_S4x2048x8192_2_1_01_0_n_n_wf

class Facts : Prop extends Facts₀ where

variable [Facts]
-- ==== Proof.Spec.lean ====
/-
  The low-rank-adapted linear layer, as one function of its five argument arrays, on the extended reals.

  With `x` of shape [4, 2048, 2048] (batch, position, input feature), a weight `W` [8192, 2048], a bias `b` [8192], and
  the two low-rank factors `A` [16, 2048] and `B` [8192, 16], the layer's output at (batch `n`, position `s`, output
  feature `o`) is

      (Σ_d x[n,s,d] · W[o,d]  +  b[o])  +  (Σ_r (Σ_d x[n,s,d] · A[r,d]) · B[o,r]) · scale,

  where `scale` is the word both programs carry for alpha / rank (here the word of 1.0; it is never evaluated).

  The same function is written a second time over the arrays a row-tiled evaluation works on: the positions of all
  batches flattened into 8192 rows `p = 2048·n + s`, the projection `R[p,r] = Σ_d x[p,d] · A[r,d]` given as an array
  of its own, and the bias as a one-row matrix.  `flat_of_args` says that the second form, at those arrays, is the first.
-/
import Idealize.ShloMosaic.PureOps.Ideal
import Idealize.ShloMosaic.Lib.ValueIdx

noncomputable section

namespace Cert.LoraSpec

open Idealize.ShloMosaic Idealize.ShloMosaic.ValueIdx

/-- The factor alpha / rank, as the word both programs spell it with. -/
abbrev scale : EReal := Ideal.ofBits .f32 0x3F800000#32

/-- The layer's output at batch `n`, position `s`, output feature `o`. -/
def outAt (x : (⟨3, ![4, 2048, 2048]⟩ : Shape).Idx → EReal) (W : (⟨2, ![8192, 2048]⟩ : Shape).Idx → EReal)
    (b : (⟨1, ![8192]⟩ : Shape).Idx → EReal) (A : (⟨2, ![16, 2048]⟩ : Shape).Idx → EReal)
    (B : (⟨2, ![8192, 16]⟩ : Shape).Idx → EReal) (n : Fin 4) (s : Fin 2048) (o : Fin 8192) : EReal :=
  ((∑ d : Fin 2048, x (ix3 n s d) * W (ix2 o d)) + b (ix1 o))
    + (∑ r : Fin 16, (∑ d : Fin 2048, x (ix3 n s d) * A (ix2 r d)) * B (ix2 o r)) * scale

/-- The layer's output as an array [4, 2048, 8192]. -/
def out (x : (⟨3, ![4, 2048, 2048]⟩ : Shape).Idx → EReal) (W : (⟨2, ![8192, 2048]⟩ : Shape).Idx → EReal)
    (b : (⟨1, ![8192]⟩ : Shape).Idx → EReal) (A : (⟨2, ![16, 2048]⟩ : Shape).Idx → EReal)
    (B : (⟨2, ![8192, 16]⟩ : Shape).Idx → EReal) : (⟨3, ![4, 2048, 8192]⟩ : Shape).Idx → EReal :=
  fun i => outAt x W b A B ⟨(i 0).val, (i 0).isLt⟩ ⟨(i 1).val, (i 1).isLt⟩ ⟨(i 2).val, (i 2).isLt⟩

theorem out_apply (x : (⟨3, ![4, 2048, 2048]⟩ : Shape).Idx → EReal) (W : (⟨2, ![8192, 2048]⟩ : Shape).Idx → EReal)
    (b : (⟨1, ![8192]⟩ : Shape).Idx → EReal) (A : (⟨2, ![16, 2048]⟩ : Shape).Idx → EReal)
    (B : (⟨2, ![8192, 16]⟩ : Shape).Idx → EReal) (n : Fin 4) (s : Fin 2048) (o : Fin 8192) :
    out x W b A B (ix3 n s o) = outAt x W b A B n s o := rfl

/-- The same output over flattened rows: entry (row `p`, output feature `o`) from the flattened input `X`, the weight,
    the projection `R` of the rows onto the rank axis, the second factor, and the bias as a one-row matrix. -/
def flatAt (X : (⟨2, ![8192, 2048]⟩ : Shape).Idx → EReal) (W : (⟨2, ![8192, 2048]⟩ : Shape).Idx → EReal)
    (R : (⟨2, ![8192, 16]⟩ : Shape).Idx → EReal) (B : (⟨2, ![8192, 16]⟩ : Shape).Idx → EReal)
    (bias : (⟨2, ![1, 8192]⟩ : Shape).Idx → EReal) (p : Fin 8192) (o : Fin 8192) : EReal :=
  ((∑ d : Fin 2048, X (ix2 p d) * W (ix2 o d)) + bias (ix2 (0 : Fin 1) o))
    + (∑ r : Fin 16, R (ix2 p r) * B (ix2 o r)) * scale

/-- The flattened output as an array [8192, 8192]. -/
def flat (X : (⟨2, ![8192, 2048]⟩ : Shape).Idx → EReal) (W : (⟨2, ![8192, 2048]⟩ : Shape).Idx → EReal)
    (R : (⟨2, ![8192, 16]⟩ : Shape).Idx → EReal) (B : (⟨2, ![8192, 16]⟩ : Shape).Idx → EReal)
    (bias : (⟨2, ![1, 8192]⟩ : Shape).Idx → EReal) : (⟨2, ![8192, 8192]⟩ : Shape).Idx → EReal :=
  fun i => flatAt X W R B bias ⟨(i 0).val, (i 0).isLt⟩ ⟨(i 1).val, (i 1).isLt⟩

theorem flat_apply (X : (⟨2, ![8192, 2048]⟩ : Shape).Idx → EReal) (W : (⟨2, ![8192, 2048]⟩ : Shape).Idx → EReal)
    (R : (⟨2, ![8192, 16]⟩ : Shape).Idx → EReal) (B : (⟨2, ![8192, 16]⟩ : Shape).Idx → EReal)
    (bias : (⟨2, ![1, 8192]⟩ : Shape).Idx → EReal) (p : Fin 8192) (o : Fin 8192) :
    flat X W R B bias (ix2 p o) = flatAt X W R B bias p o := rfl

/-- The flattened form at the flattened input, the projection of its rows and the one-row bias is the layer's output:
    if row `p` of `X` is row (n, s) of `x`, `R` at row `p` is the projection of that row, and the bias row is `b`, then
    entry (p, o) of the flattened form is entry (n, s, o) of the output. -/
theorem flatAt_eq_outAt (x : (⟨3, ![4, 2048, 2048]⟩ : Shape).Idx → EReal) (W : (⟨2, ![8192, 2048]⟩ : Shape).Idx → EReal)
    (b : (⟨1, ![8192]⟩ : Shape).Idx → EReal) (A : (⟨2, ![16, 2048]⟩ : Shape).Idx → EReal)
    (B : (⟨2, ![8192, 16]⟩ : Shape).Idx → EReal)
    (X : (⟨2, ![8192, 2048]⟩ : Shape).Idx → EReal) (R : (⟨2, ![8192, 16]⟩ : Shape).Idx → EReal)
    (bias : (⟨2, ![1, 8192]⟩ : Shape).Idx → EReal)
    (p : Fin 8192) (n : Fin 4) (s : Fin 2048) (o : Fin 8192)
    (hX : ∀ d : Fin 2048, X (ix2 p d) = x (ix3 n s d))
    (hR : ∀ r : Fin 16, R (ix2 p r) = ∑ d : Fin 2048, X (ix2 p d) * A (ix2 r d))
    (hb : bias (ix2 (0 : Fin 1) o) = b (ix1 o)) :
    flatAt X W R B bias p o = outAt x W b A B n s o := by
  unfold flatAt outAt
  rw [hb]
  simp only [hR, hX]

end Cert.LoraSpec

end
-- ==== Proof.RefValue.lean ====
/-
  The reference computes the layer's output.

  The reference program contracts the input with the weight over the feature axis, adds the bias repeated over batch
  and position, contracts the input with the first factor and the result with the second, multiplies by the scale
  repeated over the whole array, and adds the two parts.  Read at an entry (n, s, o), one operation at a time, that is

      (Σ_d x[n,s,d] · W[o,d] + b[o]) + (Σ_r (Σ_d x[n,s,d] · A[r,d]) · B[o,r]) · scale,

  the specification's `out`; what is checked is only that each operand index the operations compose is the index
  the specification names.
-/
import proofs.«103556_j39651138077175_2_alg».proof.Proof.Gen.ReferenceIdeal.Read
import proofs.«103556_j39651138077175_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The reference's result, as a function of the five arguments, is the layer's output. -/
theorem ref_eq_out (x : (⟨S4x2048x2048, .f32⟩ : BufTy).Contents (Elt Ideal)) (W : (⟨S8192x2048, .f32⟩ : BufTy).Contents (Elt Ideal))
    (b : (⟨S8192, .f32⟩ : BufTy).Contents (Elt Ideal)) (A : (⟨S16x2048, .f32⟩ : BufTy).Contents (Elt Ideal))
    (B : (⟨S8192x16, .f32⟩ : BufTy).Contents (Elt Ideal)) :
    val_main_v8 (F := Ideal) x W b A B = Cert.LoraSpec.out x W b A B := by
  funext i
  have exl : ∀ k : Fin 2048, lidx_main_v0 i k = ix3 (⟨(i 0).val, (i 0).isLt⟩ : Fin 4) (⟨(i 1).val, (i 1).isLt⟩ : Fin 2048) k :=
    fun k => funext fun a => by match a with | ⟨0, _⟩ => rfl | ⟨1, _⟩ => rfl | ⟨2, _⟩ => rfl
  have exr : ∀ k : Fin 2048, ridx_main_v0 i k = ix2 (⟨(i 2).val, (i 2).isLt⟩ : Fin 8192) k :=
    fun k => funext fun a => by match a with | ⟨0, _⟩ => rfl | ⟨1, _⟩ => rfl
  have eb : idx_main_v1 (idx_main_v2 i) = ix1 (⟨(i 2).val, (i 2).isLt⟩ : Fin 8192) :=
    funext fun a => by match a with | ⟨0, _⟩ => rfl
  have eal : ∀ (r : Fin 16) (d : Fin 2048), lidx_main_v4 (lidx_main_v5 i r) d = ix3 (⟨(i 0).val, (i 0).isLt⟩ : Fin 4) (⟨(i 1).val, (i 1).isLt⟩ : Fin 2048) d :=
    fun r d => funext fun a => by match a with | ⟨0, _⟩ => rfl | ⟨1, _⟩ => rfl | ⟨2, _⟩ => rfl
  have ear : ∀ (r : Fin 16) (d : Fin 2048), ridx_main_v4 (lidx_main_v5 i r) d = ix2 r d :=
    fun r d => funext fun a => by match a with | ⟨0, _⟩ => rfl | ⟨1, _⟩ => rfl
  have ebr : ∀ r : Fin 16, ridx_main_v5 i r = ix2 (⟨(i 2).val, (i 2).isLt⟩ : Fin 8192) r :=
    fun r => funext fun a => by match a with | ⟨0, _⟩ => rfl | ⟨1, _⟩ => rfl
  rw [val_main_v8_apply, val_main_v3_apply, val_main_v0_apply, val_main_v2_apply, val_main_v1_apply,
    val_main_v7_apply, val_main_v5_apply, val_main_v6_apply, val_main_cst_apply]
  simp only [val_main_v4_apply, exl, exr, eb, eal, ear, ebr]
  rfl

end Cert.ReferenceIdeal.RefValue

end
-- ==== Proof.Contract.lean ====
/-
  The three contractions of the tiled program, each read at an entry as a plain sum.

  All three contract the LAST axis of two matrices (a product with the second operand transposed): at entry (p, q) the
  result is Σ_k l[p,k] · r[q,k].  Two are the products inside one tile, into a zero accumulator — a [1024, 2048] block of
  rows against a [1024, 2048] block of weight rows, and a [1024, 16] block of projected rows against a [1024, 16] block
  of the second factor —; the third is the host's projection of all 8192 rows onto the 16 rank directions.
  Each proof names the operand indices the contraction's dimension numbers give (the row of the left operand is the
  entry's row, the row of the right operand is the entry's column, both columns are the summation index) and re-indexes
  the sum over the contraction's one axis by its coordinate.
-/
import proofs.«103556_j39651138077175_2_alg».proof.Proof.Gen.KernelIdeal
import Idealize.ShloMosaic.Lib.ValueIdx
import Idealize.ShloMosaic.PureOps.Ideal.Laws

noncomputable section

namespace Cert.KernelIdeal.Contract

open Cert.KernelIdeal Cert.KernelIdeal.Gen Idealize.ShloMosaic Idealize.ShloMosaic.ValueIdx

/-! ## A block of rows against a block of weight rows -/

theorem wide_lhs0 (i : S1024x1024.Idx) (q : dot_S1024x2048_S1024x2048_S1024x1024_1_1_0_0_n_n.contr.Idx) :
    (dot_S1024x2048_S1024x2048_S1024x1024_1_1_0_0_n_n.lhsIdx i q 0).val = (i 0).val := by
  unfold DotDims.lhsIdx
  rw [dif_neg (show ¬(0 : Fin S1024x2048.rank) ∈ dot_S1024x2048_S1024x2048_S1024x1024_1_1_0_0_n_n.lhsBatch by decide), dif_pos (show (0 : Fin S1024x2048.rank) ∈ dot_S1024x2048_S1024x2048_S1024x1024_1_1_0_0_n_n.lhsNonContracting by decide)]
  rfl
theorem wide_lhs1 (i : S1024x1024.Idx) (q : dot_S1024x2048_S1024x2048_S1024x1024_1_1_0_0_n_n.contr.Idx) :
    (dot_S1024x2048_S1024x2048_S1024x1024_1_1_0_0_n_n.lhsIdx i q 1).val = (q ⟨0, by decide⟩).val :=
  dot_S1024x2048_S1024x2048_S1024x1024_1_1_0_0_n_n.lhsIdx_val_of_single rfl i q
theorem wide_rhs0 (i : S1024x1024.Idx) (q : dot_S1024x2048_S1024x2048_S1024x1024_1_1_0_0_n_n.contr.Idx) :
    (dot_S1024x2048_S1024x2048_S1024x1024_1_1_0_0_n_n.rhsIdx i q 0).val = (i 1).val := by
  unfold DotDims.rhsIdx
  rw [dif_neg (show ¬(0 : Fin S1024x2048.rank) ∈ dot_S1024x2048_S1024x2048_S1024x1024_1_1_0_0_n_n.rhsBatch by decide), dif_pos (show (0 : Fin S1024x2048.rank) ∈ dot_S1024x2048_S1024x2048_S1024x1024_1_1_0_0_n_n.rhsNonContracting by decide)]
  rfl
theorem wide_rhs1 (i : S1024x1024.Idx) (q : dot_S1024x2048_S1024x2048_S1024x1024_1_1_0_0_n_n.contr.Idx) :
    (dot_S1024x2048_S1024x2048_S1024x1024_1_1_0_0_n_n.rhsIdx i q 1).val = (q ⟨0, by decide⟩).val :=
  dot_S1024x2048_S1024x2048_S1024x1024_1_1_0_0_n_n.rhsIdx_val_of_single rfl i q

/-- The tile's main product at entry (p, q): row `p` of the left block against row `q` of the right block. -/
theorem wide_apply (l r : FVec Ideal S1024x2048 .bf16) (p q : Fin 1024) :
    matmul dot_S1024x2048_S1024x2048_S1024x1024_1_1_0_0_n_n none l r (constant S1024x1024 .f32 0x00000000#32) (ix2 p q)
      = ∑ d : Fin 2048, l (ix2 p d) * r (ix2 q d) := by
  simp only [matmul]
  rw [Ideal.matmul_constant_zero_apply, ← Equiv.sum_comp (ValueIdx.contrEquiv1 dot_S1024x2048_S1024x2048_S1024x1024_1_1_0_0_n_n 2048 rfl rfl).symm]
  refine Finset.sum_congr rfl fun k _ => ?_
  have hk := ValueIdx.contrEquiv1_symm_val dot_S1024x2048_S1024x2048_S1024x1024_1_1_0_0_n_n 2048 rfl rfl k
  have el : dot_S1024x2048_S1024x2048_S1024x1024_1_1_0_0_n_n.lhsIdx (ix2 p q) ((ValueIdx.contrEquiv1 dot_S1024x2048_S1024x2048_S1024x1024_1_1_0_0_n_n 2048 rfl rfl).symm k) = ix2 p k := funext fun a => Fin.ext (by
    match a with
    | ⟨0, _⟩ => exact wide_lhs0 _ _
    | ⟨1, _⟩ => exact (wide_lhs1 _ _).trans hk)
  have er : dot_S1024x2048_S1024x2048_S1024x1024_1_1_0_0_n_n.rhsIdx (ix2 p q) ((ValueIdx.contrEquiv1 dot_S1024x2048_S1024x2048_S1024x1024_1_1_0_0_n_n 2048 rfl rfl).symm k) = ix2 q k := funext fun a => Fin.ext (by
    match a with
    | ⟨0, _⟩ => exact wide_rhs0 _ _
    | ⟨1, _⟩ => exact (wide_rhs1 _ _).trans hk)
  rw [el, er]

/-! ## A block of projected rows against a block of the second factor -/

theorem thin_lhs0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem thin_lhs1 (i : S1024x1024.Idx) (q : dot_S1024x16_S1024x16_S1024x1024_1_1_0_0_n_n.contr.Idx) :
    (dot_S1024x16_S1024x16_S1024x1024_1_1_0_0_n_n.lhsIdx i q 1).val = (q ⟨0, by decide⟩).val :=
  dot_S1024x16_S1024x16_S1024x1024_1_1_0_0_n_n.lhsIdx_val_of_single rfl i q
theorem thin_rhs0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem thin_rhs1 (i : S1024x1024.Idx) (q : dot_S1024x16_S1024x16_S1024x1024_1_1_0_0_n_n.contr.Idx) :
    (dot_S1024x16_S1024x16_S1024x1024_1_1_0_0_n_n.rhsIdx i q 1).val = (q ⟨0, by decide⟩).val :=
  dot_S1024x16_S1024x16_S1024x1024_1_1_0_0_n_n.rhsIdx_val_of_single rfl i q

/-- The tile's low-rank product at entry (p, q): the projection of row `p` against row `q` of the second factor. -/
theorem thin_apply (l r : FVec Ideal S1024x16 .bf16) (p q : Fin 1024) :
    matmul dot_S1024x16_S1024x16_S1024x1024_1_1_0_0_n_n none l r (constant S1024x1024 .f32 0x00000000#32) (ix2 p q)
      = ∑ k : Fin 16, l (ix2 p k) * r (ix2 q k) := by
  simp only [matmul]
  rw [Ideal.matmul_constant_zero_apply, ← Equiv.sum_comp (ValueIdx.contrEquiv1 dot_S1024x16_S1024x16_S1024x1024_1_1_0_0_n_n 16 rfl rfl).symm]
  refine Finset.sum_congr rfl fun k _ => ?_
  have hk := ValueIdx.contrEquiv1_symm_val dot_S1024x16_S1024x16_S1024x1024_1_1_0_0_n_n 16 rfl rfl k
  have el : dot_S1024x16_S1024x16_S1024x1024_1_1_0_0_n_n.lhsIdx (ix2 p q) ((ValueIdx.contrEquiv1 dot_S1024x16_S1024x16_S1024x1024_1_1_0_0_n_n 16 rfl rfl).symm k) = ix2 p k := funext fun a => Fin.ext (by
    match a with
    | ⟨0, _⟩ => exact thin_lhs0 _ _
    | ⟨1, _⟩ => exact (thin_lhs1 _ _).trans hk)
  have er : dot_S1024x16_S1024x16_S1024x1024_1_1_0_0_n_n.rhsIdx (ix2 p q) ((ValueIdx.contrEquiv1 dot_S1024x16_S1024x16_S1024x1024_1_1_0_0_n_n 16 rfl rfl).symm k) = ix2 q k := funext fun a => Fin.ext (by
    match a with
    | ⟨0, _⟩ => exact thin_rhs0 _ _
    | ⟨1, _⟩ => exact (thin_rhs1 _ _).trans hk)
  rw [el, er]

/-! ## The host's projection of every row onto the rank directions -/

theorem proj_lhs0 (i : S8192x16.Idx) (q : dot_S8192x2048_S16x2048_S8192x16_1_1_0_0_n_n.contr.Idx) :
    (dot_S8192x2048_S16x2048_S8192x16_1_1_0_0_n_n.lhsIdx i q 0).val = (i 0).val := by
  unfold DotDims.lhsIdx
  rw [dif_neg (show ¬(0 : Fin S8192x2048.rank) ∈ dot_S8192x2048_S16x2048_S8192x16_1_1_0_0_n_n.lhsBatch by decide), dif_pos (show (0 : Fin S8192x2048.rank) ∈ dot_S8192x2048_S16x2048_S8192x16_1_1_0_0_n_n.lhsNonContracting by decide)]
  rfl
theorem proj_lhs1 (i : S8192x16.Idx) (q : dot_S8192x2048_S16x2048_S8192x16_1_1_0_0_n_n.contr.Idx) :
    (dot_S8192x2048_S16x2048_S8192x16_1_1_0_0_n_n.lhsIdx i q 1).val = (q ⟨0, by decide⟩).val :=
  dot_S8192x2048_S16x2048_S8192x16_1_1_0_0_n_n.lhsIdx_val_of_single rfl i q
theorem proj_rhs0 (i : S8192x16.Idx) (q : dot_S8192x2048_S16x2048_S8192x16_1_1_0_0_n_n.contr.Idx) :
    (dot_S8192x2048_S16x2048_S8192x16_1_1_0_0_n_n.rhsIdx i q 0).val = (i 1).val := by
  unfold DotDims.rhsIdx
  rw [dif_neg (show ¬(0 : Fin S16x2048.rank) ∈ dot_S8192x2048_S16x2048_S8192x16_1_1_0_0_n_n.rhsBatch by decide), dif_pos (show (0 : Fin S16x2048.rank) ∈ dot_S8192x2048_S16x2048_S8192x16_1_1_0_0_n_n.rhsNonContracting by decide)]
  rfl
theorem proj_rhs1 (i : S8192x16.Idx) (q : dot_S8192x2048_S16x2048_S8192x16_1_1_0_0_n_n.contr.Idx) :
    (dot_S8192x2048_S16x2048_S8192x16_1_1_0_0_n_n.rhsIdx i q 1).val = (q ⟨0, by decide⟩).val :=
  dot_S8192x2048_S16x2048_S8192x16_1_1_0_0_n_n.rhsIdx_val_of_single rfl i q

/-- The projection at (row `p`, direction `r`): row `p` of the flattened input against row `r` of the first factor. -/
theorem proj_apply (l : FVec Ideal S8192x2048 .bf16) (a : FVec Ideal S16x2048 .bf16) (p : Fin 8192) (r : Fin 16) :
    Host.dotGeneral dot_S8192x2048_S16x2048_S8192x16_1_1_0_0_n_n none l a (ix2 p r)
      = ∑ d : Fin 2048, l (ix2 p d) * a (ix2 r d) := by
  simp only [Host.dotGeneral]
  rw [Ideal.dotGeneral_apply, ← Equiv.sum_comp (ValueIdx.contrEquiv1 dot_S8192x2048_S16x2048_S8192x16_1_1_0_0_n_n 2048 rfl rfl).symm]
  refine Finset.sum_congr rfl fun k _ => ?_
  have hk := ValueIdx.contrEquiv1_symm_val dot_S8192x2048_S16x2048_S8192x16_1_1_0_0_n_n 2048 rfl rfl k
  have el : dot_S8192x2048_S16x2048_S8192x16_1_1_0_0_n_n.lhsIdx (ix2 p r) ((ValueIdx.contrEquiv1 dot_S8192x2048_S16x2048_S8192x16_1_1_0_0_n_n 2048 rfl rfl).symm k) = ix2 p k := funext fun ax => Fin.ext (by
    match ax with
    | ⟨0, _⟩ => exact proj_lhs0 _ _
    | ⟨1, _⟩ => exact (proj_lhs1 _ _).trans hk)
  have er : dot_S8192x2048_S16x2048_S8192x16_1_1_0_0_n_n.rhsIdx (ix2 p r) ((ValueIdx.contrEquiv1 dot_S8192x2048_S16x2048_S8192x16_1_1_0_0_n_n 2048 rfl rfl).symm k) = ix2 r k := funext fun ax => Fin.ext (by
    match ax with
    | ⟨0, _⟩ => exact proj_rhs0 _ _
    | ⟨1, _⟩ => exact (proj_rhs1 _ _).trans hk)
  rw [el, er]

end Cert.KernelIdeal.Contract

end
-- ==== Proof.Payload.lean ====
/-
  What one tile computes, read at an entry.

  The body of the tiled program, from the five blocks it loads — a block of input rows, a block of weight rows, the
  matching block of projected rows, a block of rows of the second factor, and a stretch of the one-row bias —, stores
  (rows · weightsᵀ + bias) + (projected · factorᵀ) · scale.  At entry (p, q) of the tile that is

      (Σ_d rows[p,d] · weights[q,d] + bias[0,q]) + (Σ_r projected[p,r] · factor[q,r]) · scale :

  the two products are sums over their shared axis, the bias row is repeated down the tile, and the scale is one
  number repeated over the whole tile.
-/
import proofs.«103556_j39651138077175_2_alg».proof.Proof.Gen.KernelIdeal.Skeleton
import proofs.«103556_j39651138077175_2_alg».proof.Proof.Spec
import proofs.«103556_j39651138077175_2_alg».proof.Proof.Contract
import Idealize.ShloMosaic.Lib.Pipeline.Value
import Idealize.ShloMosaic.Lib.ValueIdx
import Idealize.ShloMosaic.Lib.ValueLayout

noncomputable section

namespace Cert.KernelIdeal.Tile

open Cert.KernelIdeal Cert.KernelIdeal.Gen Idealize.ShloMosaic Idealize.ShloMosaic.ValueIdx

/-- The tile's stored value at entry (p, q), from the five loaded blocks. -/
theorem pay_apply (rows weights : Vec Ideal S1024x2048 .bf16) (projected factor : Vec Ideal S1024x16 .bf16)
    (bias : Vec Ideal S1x1024 .f32) (p q : Fin 1024) :
    k0_pay1 rows weights projected factor bias (ix2 p q)
      = ((∑ d : Fin 2048, rows (ix2 p d) * weights (ix2 q d)) + bias (ix2 (0 : Fin 1) q))
        + (∑ r : Fin 16, projected (ix2 p r) * factor (ix2 q r)) * Cert.LoraSpec.scale := by
  unfold k0_pay1
  simp only [shapeCast_self]
  rw [addf_apply, addf_apply, mulf_apply, Contract.wide_apply, Contract.thin_apply,
    broadcastTo_1b_ab_apply, broadcast_apply]
  rfl

end Cert.KernelIdeal.Tile

end
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.Tiles.lean ====
/-
  From tiles to the whole array.

  The grid has 8 × 8 points; point (g, h) works on rows 1024·g … 1024·g + 1023 of the flattened input and of the
  projected rows, on rows 1024·h … 1024·h + 1023 of the weight and of the second factor, on columns 1024·h … of the
  one-row bias, and writes tile (g, h) of the [8192, 8192] result.  So entry (p, q) of the tile a point writes is entry
  (1024·g + p, 1024·h + q) of ONE function of the whole arrays — the flattened form of the layer's output — and, the 64
  tiles covering the result, the result array ends holding that function.
-/
import proofs.«103556_j39651138077175_2_alg».proof.Proof.Gen.KernelIdeal.Frame
import proofs.«103556_j39651138077175_2_alg».proof.Proof.Spec
import proofs.«103556_j39651138077175_2_alg».proof.Proof.Payload
import proofs.«103556_j39651138077175_2_alg».proof.Proof.LibIdx
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Which block each window is on at a point, against the result's tile (g, h) = the result window's block index:
    the input rows and the projected rows follow `g`, the weight rows and the factor rows follow `h`, the bias columns
    follow `h`; every other block coordinate is 0; and `g`, `h` are below 8. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = win0_5.index t (1 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every tile of the 8 × 8 arrangement is some point's. -/
theorem idx_onto : ∀ (g h : Fin 8), ∃ t : Fin cfg0.N, win0_5.index t = ![g.val, h.val] :=
  (by decide +kernel : ∀ (g h : Fin 8), ∃ t : Fin grid0.N, win0_5.index t = ![g.val, h.val])

/-! ## Each loaded block, read through its rows of the whole array -/

/-- Entry (p, d) of the block of input rows at a point is entry (P, d) of the flattened input, `P` the tile's row. -/
theorem rows_read (c : Dev nD) (t : Fin cfg0.N) (p : Fin 1024) (d : Fin 2048) (P : Fin 8192)
    (hP : P.val = win0_5.index t (0 : Fin 2) * 1024 + p.val) :
    (iblk m c 0 t : Vec Ideal S1024x2048 .bf16) (ix2 p d) = (V m c main_v2 : S8192x2048.Idx → EReal) (ix2 P d) := by
  obtain ⟨e00, e01, -⟩ := idx_facts t
  show V m c main_v2 (((cfg0.win 0).blk t).view.emb (ix2 p d)) = V m c main_v2 (ix2 P d)
  have h : ((cfg0.win 0).blk t).view.emb (ix2 p d) = ix2 P d := by
    funext a; apply Fin.ext
    match a with
    | ⟨0, _⟩ => show win0_0.index t (0 : Fin 2) * 1024 + 1 * p.val = P.val; omega
    | ⟨1, _⟩ => show win0_0.index t (1 : Fin 2) * 2048 + 1 * d.val = d.val; omega
  rw [h]

/-- Entry (q, d) of the block of weight rows at a point is entry (Q, d) of the weight, `Q` the tile's column. -/
theorem weights_read (c : Dev nD) (t : Fin cfg0.N) (q : Fin 1024) (d : Fin 2048) (Q : Fin 8192)
    (hQ : Q.val = win0_5.index t (1 : Fin 2) * 1024 + q.val) :
    (iblk m c 1 t : Vec Ideal S1024x2048 .bf16) (ix2 q d) = (V m c main_v3 : S8192x2048.Idx → EReal) (ix2 Q d) := by
  obtain ⟨-, -, e10, e11, -⟩ := idx_facts t
  show V m c main_v3 (((cfg0.win 1).blk t).view.emb (ix2 q d)) = V m c main_v3 (ix2 Q d)
  have h : ((cfg0.win 1).blk t).view.emb (ix2 q d) = ix2 Q d := by
    funext a; apply Fin.ext
    match a with
    | ⟨0, _⟩ => show win0_1.index t (0 : Fin 2) * 1024 + 1 * q.val = Q.val; omega
    | ⟨1, _⟩ => show win0_1.index t (1 : Fin 2) * 2048 + 1 * d.val = d.val; omega
  rw [h]

/-- Entry (p, r) of the block of projected rows at a point is entry (P, r) of the projection. -/
theorem projected_read (c : Dev nD) (t : Fin cfg0.N) (p : Fin 1024) (r : Fin 16) (P : Fin 8192)
    (hP : P.val = win0_5.index t (0 : Fin 2) * 1024 + p.val) :
    (iblk m c 2 t : Vec Ideal S1024x16 .bf16) (ix2 p r) = (V m c main_v7 : S8192x16.Idx → EReal) (ix2 P r) := by
  obtain ⟨-, -, -, -, e20, e21, -⟩ := idx_facts t
  show V m c main_v7 (((cfg0.win 2).blk t).view.emb (ix2 p r)) = V m c main_v7 (ix2 P r)
  have h : ((cfg0.win 2).blk t).view.emb (ix2 p r) = ix2 P r := by
    funext a; apply Fin.ext
    match a with
    | ⟨0, _⟩ => show win0_2.index t (0 : Fin 2) * 1024 + 1 * p.val = P.val; omega
    | ⟨1, _⟩ => show win0_2.index t (1 : Fin 2) * 16 + 1 * r.val = r.val; omega
  rw [h]

/-- Entry (q, r) of the block of rows of the second factor at a point is entry (Q, r) of the second factor. -/
theorem factor_read (c : Dev nD) (t : Fin cfg0.N) (q : Fin 1024) (r : Fin 16) (Q : Fin 8192)
    (hQ : Q.val = win0_5.index t (1 : Fin 2) * 1024 + q.val) :
    (iblk m c 3 t : Vec Ideal S1024x16 .bf16) (ix2 q r) = (V m c main_v5 : S8192x16.Idx → EReal) (ix2 Q r) := by
  obtain ⟨-, -, -, -, -, -, e30, e31, -⟩ := idx_facts t
  show V m c main_v5 (((cfg0.win 3).blk t).view.emb (ix2 q r)) = V m c main_v5 (ix2 Q r)
  have h : ((cfg0.win 3).blk t).view.emb (ix2 q r) = ix2 Q r := by
    funext a; apply Fin.ext
    match a with
    | ⟨0, _⟩ => show win0_3.index t (0 : Fin 2) * 1024 + 1 * q.val = Q.val; omega
    | ⟨1, _⟩ => show win0_3.index t (1 : Fin 2) * 16 + 1 * r.val = r.val; omega
  rw [h]

/-- Entry (0, q) of the stretch of the bias row at a point is entry (0, Q) of the bias row. -/
theorem bias_read (c : Dev nD) (t : Fin cfg0.N) (q : Fin 1024) (Q : Fin 8192)
    (hQ : Q.val = win0_5.index t (1 : Fin 2) * 1024 + q.val) :
    (iblk m c 4 t : Vec Ideal S1x1024 .f32) (ix2 (0 : Fin 1) q) = (V m c main_v1 : S1x8192.Idx → EReal) (ix2 (0 : Fin 1) Q) := by
  obtain ⟨-, -, -, -, -, -, -, -, e40, e41, -⟩ := idx_facts t
  show V m c main_v1 (((cfg0.win 4).blk t).view.emb (ix2 (0 : Fin 1) q)) = V m c main_v1 (ix2 (0 : Fin 1) Q)
  have h : ((cfg0.win 4).blk t).view.emb (ix2 (0 : Fin 1) q) = ix2 (0 : Fin 1) Q := by
    funext a; apply Fin.ext
    match a with
    | ⟨0, _⟩ => show win0_4.index t (0 : Fin 2) * 1 + 1 * 0 = 0; omega
    | ⟨1, _⟩ => show win0_4.index t (1 : Fin 2) * 1024 + 1 * q.val = Q.val; omega
  rw [h]

/-! ## What a point writes back -/

/-- The whole-array function the tiles are pieces of: the flattened form of the layer's output, at the arrays the
    tiled region finds. -/
abbrev whole (c : Dev nD) : S8192x8192.Idx → EReal :=
  Cert.LoraSpec.flat (V m c main_v2) (V m c main_v3) (V m c main_v7) (V m c main_v5) (V m c main_v1)

/-- Entry (p, q) of what the body computes at a point is entry (P, Q) of the whole-array function, (P, Q) the entry's
    place in the result. -/
theorem tile_entry (c : Dev nD) (t : Fin cfg0.N) (p q : Fin 1024) (P Q : Fin 8192)
    (hP : P.val = win0_5.index t (0 : Fin 2) * 1024 + p.val) (hQ : Q.val = win0_5.index t (1 : Fin 2) * 1024 + q.val) :
    k0_pay1 (iblk m c 0 t) (iblk m c 1 t) (iblk m c 2 t) (iblk m c 3 t) (iblk m c 4 t) (ix2 p q) = whole m c (ix2 P Q) := by
  refine (Tile.pay_apply (iblk m c 0 t) (iblk m c 1 t) (iblk m c 2 t) (iblk m c 3 t) (iblk m c 4 t) p q).trans ?_
  show _ = Cert.LoraSpec.flatAt (V m c main_v2) (V m c main_v3) (V m c main_v7) (V m c main_v5) (V m c main_v1) P Q
  unfold Cert.LoraSpec.flatAt
  rw [bias_read m c t q Q hQ]
  simp only [rows_read m c t p _ P hP, weights_read m c t q _ Q hQ, projected_read m c t p _ P hP, factor_read m c t q _ Q hQ]

/-- The same at an entry `j` of the tile, its place in the result given by the result window's block at the point. -/
theorem tile_at (c : Dev nD) (t : Fin cfg0.N) (j : S1024x1024.Idx) :
    k0_pay1 (iblk m c 0 t) (iblk m c 1 t) (iblk m c 2 t) (iblk m c 3 t) (iblk m c 4 t) j
      = whole m c (((cfg0.win 5).blk t).view.emb j) := by
  obtain ⟨p, q, rfl⟩ : ∃ (p q : Fin 1024), j = ix2 p q := ⟨j 0, j 1, eq_ix2 j⟩
  obtain ⟨-, -, -, -, -, -, -, -, -, -, g7, h7⟩ := idx_facts t
  have hemb : ((cfg0.win 5).blk t).view.emb (ix2 p q)
      = ix2 (⟨win0_5.index t (0 : Fin 2) * 1024 + p.val, by omega⟩ : Fin 8192) (⟨win0_5.index t (1 : Fin 2) * 1024 + q.val, by omega⟩ : Fin 8192) := by
    funext a; apply Fin.ext
    match a with
    | ⟨0, _⟩ => show win0_5.index t (0 : Fin 2) * 1024 + 1 * p.val = win0_5.index t (0 : Fin 2) * 1024 + p.val; omega
    | ⟨1, _⟩ => show win0_5.index t (1 : Fin 2) * 1024 + 1 * q.val = win0_5.index t (1 : Fin 2) * 1024 + q.val; omega
  rw [hemb]
  exact tile_entry m c t p q _ _ rfl rfl

/-- What point `t` writes back is tile `t` of the whole-array function. -/
theorem flushed_eq (c : Dev nD) (t : Fin cfg0.N) :
    (dats m 0 c).flushed 5 t = ((cfg0.win 5).blk t).view.read (Elt Ideal) (whole m c) := by
  show (cfg0.win 5).cut (grid0.coords t) ((dats m 0 c).after 5 t) = _
  rw [after0_5]
  unfold out0_5
  rw [View.canon_unit_zero hz]
  simp only [View.ld_unit_zero (S := S1024x2048) hz, View.ld_unit_zero (S := S1024x16) hz, View.ld_unit_zero (S := S1x1024) hz]
  funext j
  exact tile_at m c t j

/-! ## The tiles cover the result -/

/-- An entry of the result is in point `t`'s tile iff each coordinate is in the tile's range on its axis. -/
theorem mem_blk (t : Fin cfg0.N) (i : S8192x8192.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v8).slice (win0_5.rect t)).set ↔ _
  rw [View.set_slice_whole, Rect.mem_set_unit]
  exact Iff.rfl

/-- Every entry (P, Q) of the result lies in the tile of the point working on (P / 1024, Q / 1024), and every point
    writes its tile back. -/
theorem cover (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The result array after the tiled region: the flattened form of the layer's output at the arrays the region finds. -/
theorem final (c : Dev nD) : (dats m 0 c).arrAt 5 cfg0.N = whole m c :=
  (dats m 0 c).arrAt_eq_of_cover 5 (whole m c) (fun t _ => flushed_eq m c t) cover

end Cert.KernelIdeal.Tiles

end
-- ==== Proof.LibRank3Layout.lean ====
import Idealize.ShloMosaic.Lib.Pipeline.Value
import Idealize.ShloMosaic.Lib.ValueIdx

/-!
# Layout operations of a kept-dimension reduction and of a flattened matrix product, read at coordinates

Four re-layouts, each read at an index written by its coordinates:
* an `[a, b]` array cast to `[a, b, 1]` (a trailing unit axis added) reads, at `(i, j, u)`, the operand at `(i, j)`;
* an `[a, b, 1]` array broadcast to `[a, b, c]` reads, at `(i, j, k)`, the operand at `(i, j, 0)`;
* an `[a, b, c]` array cast to `[n, c]` with the two leading axes flattened reads, at `(p, k)` with
  `p = i · b + j`, the operand at `(i, j, k)`;
* an `[n, c]` array cast back to `[a, b, c]` reads, at `(i, j, k)`, the operand at `(i · b + j, k)`.
Each is the row-major position computed on both sides.
-/

namespace Idealize.ShloMosaic.ValueLayout3

open Idealize.ShloMosaic Idealize.ShloMosaic.ValueIdx

variable {α : Type}

/-- `[a, b]` cast to `[a, b, 1]`, read at `(i, j, u)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]`, read at `(i, j, k)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, b, c]` cast to `[n, c]` (the two leading axes flattened), read at `(p, k)` with `p = i · b + j`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (i : Fin a) (j : Fin b) (k : Fin c)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- `[n, c]` cast to `[a, b, c]`, read at `(i, j, k)`: the operand at `(p, k)` with `p = i · b + j`. -/
theorem shapeCast_nc_abc_apply {a b c n : ℕ} (x : (⟨2, ![n, c]⟩ : Shape).Idx → α)
    (h : (⟨2, ![n, c]⟩ : Shape).ShapeCasts ⟨3, ![a, b, c]⟩) (p : Fin n) (i : Fin a) (j : Fin b) (k : Fin c)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

end Idealize.ShloMosaic.ValueLayout3
-- ==== Proof.HostSide.lean ====
/-
  Around the tiled region: what it finds, and what becomes of what it leaves.

  Before the region the host flattens the input's batch and position axes into 8192 rows, turns the bias into a
  one-row matrix, and projects every row onto the 16 rank directions; the changes of float format in between are the
  identity on the extended reals.  So row `2048·n + s` of the flattened input is row (n, s) of the input, the projection
  at (row, r) is Σ_d row[d] · A[r,d], the weight and the second factor are the arguments themselves, and the bias row is
  the bias.  After the region the host splits the 8192 rows of the result back into batch and position.  Together with
  the tiles' whole-array equation this makes the program's result the layer's output, entry by entry.
-/
import proofs.«103556_j39651138077175_2_alg».proof.Proof.Gen.KernelIdeal.Frame
import proofs.«103556_j39651138077175_2_alg».proof.Proof.Spec
import proofs.«103556_j39651138077175_2_alg».proof.Proof.Contract
import proofs.«103556_j39651138077175_2_alg».proof.Proof.Tiles
import proofs.«103556_j39651138077175_2_alg».proof.Proof.LibRank3Layout
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ)

/-! ## The arrays the region finds -/

/-- The flattened input: the input with its batch and position axes merged. -/
theorem found_rows (c : Dev nD) : (V m c main_v2 : S8192x2048.Idx → EReal)
    = shapeCast S8192x2048 (m ((c : Thread nD τ).loc main_arg0)) shapeCasts_S4x2048x2048_S8192x2048 := by
  show StableHlo.after hostOps0 (fun b => m (c, b)) (Proc.devRef .tc main_v2) = _
  after_results
  rfl

/-- The weight, as given. -/
theorem found_weights (c : Dev nD) : (V m c main_v3 : S8192x2048.Idx → EReal) = m ((c : Thread nD τ).loc main_arg1) := by
  show StableHlo.after hostOps0 (fun b => m (c, b)) (Proc.devRef .tc main_v3) = _
  after_results
  rfl

/-- The second factor, as given. -/
theorem found_factor (c : Dev nD) : (V m c main_v5 : S8192x16.Idx → EReal) = m ((c : Thread nD τ).loc main_arg4) := by
  show StableHlo.after hostOps0 (fun b => m (c, b)) (Proc.devRef .tc main_v5) = _
  after_results
  rfl

/-- The bias as a one-row matrix. -/
theorem found_bias (c : Dev nD) : (V m c main_v1 : S1x8192.Idx → EReal)
    = shapeCast S1x8192 (m ((c : Thread nD τ).loc main_arg2)) shapeCasts_S8192_S1x8192 := by
  show StableHlo.after hostOps0 (fun b => m (c, b)) (Proc.devRef .tc main_v1) = _
  after_results
  rfl

/-- The projection of the flattened input's rows onto the rank directions. -/
theorem found_projected (c : Dev nD) : (V m c main_v7 : S8192x16.Idx → EReal)
    = Host.dotGeneral (F := Ideal) (φ₁ := .bf16) (φ₂ := .bf16) dot_S8192x2048_S16x2048_S8192x16_1_1_0_0_n_n none
        (V m c main_v2 : FVec Ideal S8192x2048 .bf16) (m ((c : Thread nD τ).loc main_arg3) : FVec Ideal S16x2048 .bf16) := by
  rw [found_rows]
  show StableHlo.after hostOps0 (fun b => m (c, b)) (Proc.devRef .tc main_v7) = _
  after_results
  rfl

/-! ## After the region -/

/-- The program's result: the region's result array with its 8192 rows split back into batch and position. -/
theorem tail_eq (c : Dev nD) :
    (Pipeline.afterTail₀ cfgs (dats m) 0 (V0 m) [hostOps1] c main_v9 : S4x2048x8192.Idx → EReal)
      = shapeCast S4x2048x8192 ((dats m 0 c).arrAt 5 cfg0.N : S8192x8192.Idx → EReal) shapeCasts_S8192x8192_S4x2048x8192 := by
  unfold Pipeline.afterTail₀
  show StableHlo.after hostOps1 _ (Proc.devRef .tc main_v9) = _
  after_results
  have h : (Pipeline.withArrays (cfgs 0).spec c (V0 m c) (fun w => (dats m 0 c).arrAt w (cfgs 0).N) (Proc.devRef .tc main_v8) : S8192x8192.Idx → EReal)
      = (dats m 0 c).arrAt 5 cfg0.N :=
    Pipeline.withArrays_arr spec0 launch0.win.arr_inj c (V0 m c) (fun w => (dats m 0 c).arrAt w cfg0.N) 5
  rw [h]
  rfl

/-! ## The program's result is the layer's output -/

/-- Entry (n, s, o) of the program's result: entry (2048·n + s, o) of the region's result array, which is the flattened
    form at the arrays the region finds, which is the layer's output at the arguments. -/
theorem result_eq (c : Dev nD) :
    (Pipeline.afterTail₀ cfgs (dats m) 0 (V0 m) [hostOps1] c main_v9 : S4x2048x8192.Idx → EReal)
      = Cert.LoraSpec.out (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, Tiles.final]
  funext i
  obtain ⟨n, s, o, rfl⟩ : ∃ (n : Fin 4) (s : Fin 2048) (o : Fin 8192), i = ix3 n s o := ⟨i 0, i 1, i 2, eq_ix3 i⟩
  have hn : n.val < 4 := n.isLt
  have hs : s.val < 2048 := s.isLt
  rw [ValueLayout3.shapeCast_nc_abc_apply (Tiles.whole m c) shapeCasts_S8192x8192_S4x2048x8192
    (⟨n.val * 2048 + s.val, by omega⟩ : Fin 8192) n s o rfl, Cert.LoraSpec.out_apply]
  show Cert.LoraSpec.flatAt (V m c main_v2) (V m c main_v3) (V m c main_v7) (V m c main_v5) (V m c main_v1) _ o = _
  rw [found_weights, found_factor]
  refine Cert.LoraSpec.flatAt_eq_outAt _ _ _ _ _ _ _ _ _ n s o (fun d => ?_) (fun r => ?_) ?_
  · rw [found_rows]
    exact ValueLayout3.shapeCast_abc_nc_apply _ shapeCasts_S4x2048x2048_S8192x2048 _ n s d rfl
  · rw [found_projected]
    exact Contract.proj_apply _ _ _ r
  · rw [found_bias]
    exact shapeCast_a_1a_apply _ shapeCasts_S8192_S1x8192 (0 : Fin 1) o

/-! ## The run, with the result named -/

/-- Every weakly fair execution of the program terminates with its result at the layer's output of the argument
    arrays, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v9)
        = Cert.LoraSpec.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSide

end
-- ==== Proof.lean ====
/-
  A linear layer with a low-rank adapter, tiled, against its plain definition.

  Both programs compute, from an input `x` [4, 2048, 2048], a weight `W` [8192, 2048], a bias `b` [8192] and two
  low-rank factors `A` [16, 2048], `B` [8192, 16], the array

      y[n,s,o] = (Σ_d x[n,s,d] · W[o,d] + b[o]) + (Σ_r (Σ_d x[n,s,d] · A[r,d]) · B[o,r]) · scale        (Proof/Spec.lean).

  The reference does so with three contractions over whole arrays (Proof/RefValue.lean reads its operations at an entry).
  The tiled program flattens batch and position into 8192 rows, projects the rows onto the rank directions once on the
  host, and then computes the [8192, 8192] result in 8 × 8 tiles of 1024 × 1024 entries, each from 1024 input rows,
  1024 weight rows, the matching projected rows and factor rows and a stretch of the bias; it then splits the rows back
  into batch and position.  On the extended reals a change of float format is the identity and a product into a zero
  accumulator is the plain sum, so a tile's entry (p, q) is entry (1024·g + p, 1024·h + q) of one function of the whole
  arrays (Proof/Contract.lean, Proof/Payload.lean, Proof/Tiles.lean), the 64 tiles cover the result, and the host
  operations around the region turn that function into `y` (Proof/HostSide.lean).  No law of arithmetic is used beyond
  reading both sides at an entry: the two sides are the same sums of the same products in the same grouping, so the
  finiteness of the inputs is never needed.
  The idealized program differs from the printed one by no rewrite, so there is nothing to preserve; the three frames
  are the generated frame runs, the reference's being its generated run with the result dropped.
-/
import proofs.«103556_j39651138077175_2_alg».proof.Defs
import proofs.«103556_j39651138077175_2_alg».proof.Proof.Gen.Kernel
import proofs.«103556_j39651138077175_2_alg».proof.Proof.Gen.Kernel.Frame
import proofs.«103556_j39651138077175_2_alg».proof.Proof.Gen.KernelIdeal
import proofs.«103556_j39651138077175_2_alg».proof.Proof.Gen.KernelIdeal.Frame
import proofs.«103556_j39651138077175_2_alg».proof.Proof.Gen.ReferenceIdeal
import proofs.«103556_j39651138077175_2_alg».proof.Proof.Gen.ReferenceIdeal.Run
import proofs.«103556_j39651138077175_2_alg».proof.Proof.Gen.ReferenceIdeal.Read
import proofs.«103556_j39651138077175_2_alg».proof.Proof.Gen.Pre_finite_inputs
import proofs.«103556_j39651138077175_2_alg».proof.Proof.Spec
import proofs.«103556_j39651138077175_2_alg».proof.Proof.RefValue
import proofs.«103556_j39651138077175_2_alg».proof.Proof.HostSide

noncomputable section

namespace Cert.Proof

open Idealize.ShloMosaic Idealize.ShloMosaic.TcCoe Idealize.SL.Sem

/-- The printed program runs and leaves its arguments as they were: the generated frame. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference runs and leaves its arguments as they were: its generated run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealized program is the printed program's own text: no rewrite to account for. -/
theorem preserves : Cert.preserves_Kernel_KernelIdeal := trivial

/-- From memories agreeing on the arguments both programs end with the layer's output `y` of those arguments: the
    tiled program by its run read through tiles and host operations, the reference by its run read operation by
    operation. -/
theorem algebraic : Cert.algebraic_KernelIdeal_ReferenceIdeal := by
  intro m ρ m' ρ' _ hagree
  refine ⟨fun c => Cert.LoraSpec.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_out,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
